-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩

class Facts : Prop where
  bcast_S_S4x65536x256 : S_.BroadcastsInDim S4x65536x256 (![] : Fin 0 → Fin S4x65536x256.rank)
  reducesTo_S4x65536x256_S_d0_1_2 : S4x65536x256.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S1x256x256 : S_.BroadcastsInDim S1x256x256 (![] : Fin 0 → Fin S1x256x256.rank)
  reducesTo_S1x256x256_S_d0_1_2 : S1x256x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x65536x256 .f32) (main_arg1 : FVec F S4x512 .f32) (main_arg2 : FVec F S1x256x256 .f32) (main_arg3 : FVec F S256x512 .f32) (main_arg4 : FVec F S256 .f32) : IVec S_ 1 :=
  let main_v0 : FVec F S4x65536x256 .f32 := Host.absf main_arg0
  let main_cst : FVec F S_ .f32 := constant S_ .f32 0x7F800000#32
  let main_v1 : FVec F S4x65536x256 .f32 := broadcastInDim S4x65536x256 ![] bcast_S_S4x65536x256 main_cst
  let main_v2 : IVec S4x65536x256 1 := cmpf .olt main_v0 main_v1
  let main_c : IVec S_ 1 := constantI S_ 1 1#1
  let main_v3 : IVec S_ 1 := (fun x v => Host.reduce IntOp.andi x v reducesTo_S4x65536x256_S_d0_1_2 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S1x256x256 .f32 := Host.absf main_arg2
  let main_cst_2 : FVec F S_ .f32 := constant S_ .f32 0x7F800000#32
  let main_v10 : FVec F S1x256x256 .f32 := broadcastInDim S1x256x256 ![] bcast_S_S1x256x256 main_cst_2
  let main_v11 : IVec S1x256x256 1 := cmpf .olt main_v9 main_v10
  let main_c_3 : IVec S_ 1 := constantI S_ 1 1#1
  let main_v12 : IVec S_ 1 := (fun x v => Host.reduce IntOp.andi x v reducesTo_S1x256x256_S_d0_1_2 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S4x256 : Shape := ⟨2, ![4, 256]⟩
abbrev S1x256 : Shape := ⟨2, ![1, 256]⟩
abbrev S4x256x1 : Shape := ⟨3, ![4, 256, 1]⟩
abbrev S4x256x256 : Shape := ⟨3, ![4, 256, 256]⟩
abbrev S4x1x256 : Shape := ⟨3, ![4, 1, 256]⟩
abbrev S1x8192x256 : Shape := ⟨3, ![1, 8192, 256]⟩
abbrev S8192x256 : Shape := ⟨2, ![8192, 256]⟩
abbrev S256x256 : Shape := ⟨2, ![256, 256]⟩

abbrev nBuf : Space → Nat
  | .hbm => 34
  | .vmem => 6
  | .smem => 0
  | _ => 0

abbrev bufTy : (tb : Table) → Fin (tcTables nBuf tb) → BufTy
  | .hbm, ⟨0, _⟩ => ⟨S4x65536x256, .f32⟩
  | .hbm, ⟨1, _⟩ => ⟨S4x512, .f32⟩
  | .hbm, ⟨2, _⟩ => ⟨S1x256x256, .f32⟩
  | .hbm, ⟨3, _⟩ => ⟨S256x512, .f32⟩
  | .hbm, ⟨4, _⟩ => ⟨S256, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S4x256, .f32⟩
  | .hbm, ⟨10, _⟩ => ⟨S1x256, .f32⟩
  | .hbm, ⟨11, _⟩ => ⟨S4x256, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S4x1x256, .f32⟩
  | .hbm, ⟨31, _⟩ => ⟨S4x256x256, .f32⟩
  | .hbm, ⟨32, _⟩ => ⟨S4x256x256, .f32⟩
  | .hbm, ⟨33, _⟩ => ⟨S4x65536x256, .f32⟩
  | .local _ .vmem, ⟨0, _⟩ => ⟨S1x8192x256, .f32⟩
  | .local _ .vmem, ⟨1, _⟩ => ⟨S1x8192x256, .f32⟩
  | .local _ .vmem, ⟨2, _⟩ => ⟨S1x256x256, .f32⟩
  | .local _ .vmem, ⟨3, _⟩ => ⟨S1x256x256, .f32⟩
  | .local _ .vmem, ⟨4, _⟩ => ⟨S1x8192x256, .f32⟩
  | .local _ .vmem, ⟨5, _⟩ => ⟨S1x8192x256, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S_S1x256x256 : S_.BroadcastsInDim S1x256x256 (![] : Fin 0 → Fin S1x256x256.rank)
  bcast_S1x256x256_S4x256x256_0_1_2 : S1x256x256.BroadcastsInDim S4x256x256 (![0, 1, 2] : Fin 3 → Fin S4x256x256.rank)
  bcast_S4x256x1_S4x256x256_0_1_2 : S4x256x1.BroadcastsInDim S4x256x256 (![0, 1, 2] : Fin 3 → Fin S4x256x256.rank)
  reducesTo_S4x256x256_S4x256_d1 : S4x256x256.ReducesTo [1] S4x256
  h_S_ : 0 < S_.numel
  bcast_S_S4x256 : S_.BroadcastsInDim S4x256 (![] : Fin 0 → Fin S4x256.rank)
  bcast_S4x256_S4x1x256_0_2 : S4x256.BroadcastsInDim S4x1x256 (![0, 2] : Fin 2 → Fin S4x1x256.rank)
  bcast_S4x1x256_S4x256x256_0_1_2 : S4x1x256.BroadcastsInDim S4x256x256 (![0, 1, 2] : Fin 3 → Fin S4x256x256.rank)
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S8192x256_S1x8192x256 : S8192x256.ShapeCasts S1x8192x256
  dot_S4x512_S512x256_S4x256_1_0_0_1_n_n_wf : DotDims.WF S4x512 S512x256 S4x256 [1] [0] [0] [1] [] []
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x256.size a ≤ S4x65536x256.size a
  hwx0_0 : ∀ i : grid0.Coords, EltTy.bits .f32 = 32 ∨ (Rect.block (s := S4x65536x256) S1x8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S4x256x256.size a
  hwx0_1 : ∀ i : grid0.Coords, EltTy.bits .f32 = 32 ∨ (Rect.block (s := S4x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x256.size a ≤ S4x65536x256.size a
  hwx0_2 : ∀ i : grid0.Coords, EltTy.bits .f32 = 32 ∨ (Rect.block (s := S4x65536x256) S1x8192x256.size (cc0_transform_2 i) (hinb0_2 i)).WholeWords (EltTy.packing .f32)

variable [Facts₀]

def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S1x8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x65536x256 : Shape := ⟨3, ![4, 65536, 256]⟩
abbrev S4x512 : Shape := ⟨2, ![4, 512]⟩
abbrev S1x256x256 : Shape := ⟨3, ![1, 256, 256]⟩
abbrev S256x512 : Shape := ⟨2, ![256, 512]⟩
abbrev S256 : Shape := ⟨1, ![256]⟩
abbrev S_ : Shape := ⟨0, ![]⟩
abbrev S512x256 : Shape := ⟨2, ![512, 256]⟩
abbrev S4x256 : Shape := ⟨2, ![4, 256]⟩
abbrev S1x256 : Shape := ⟨2, ![1, 256]⟩
abbrev S4x256x1 : Shape := ⟨3, ![4, 256, 1]⟩
abbrev S4x256x256 : Shape := ⟨3, ![4, 256, 256]⟩
abbrev S4x1x256 : Shape := ⟨3, ![4, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S4x512, .f32⟩
  | .hbm, ⟨2, _⟩ => ⟨S1x256x256, .f32⟩
  | .hbm, ⟨3, _⟩ => ⟨S256x512, .f32⟩
  | .hbm, ⟨4, _⟩ => ⟨S256, .f32⟩
  | .hbm, ⟨5, _⟩ => ⟨S_, .f32⟩
  | .hbm, ⟨6, _⟩ => ⟨S256x512, .f32⟩
  | .hbm, ⟨7, _⟩ => ⟨S256x512, .f32⟩
  | .hbm, ⟨8, _⟩ => ⟨S512x256, .f32⟩
  | .hbm, ⟨9, _⟩ => ⟨S4x256, .f32⟩
  | .hbm, ⟨10, _⟩ => ⟨S1x256, .f32⟩
  | .hbm, ⟨11, _⟩ => ⟨S4x256, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S_, .f32⟩
  | .hbm, ⟨18, _⟩ => ⟨S1x256x256, .f32⟩
  | .hbm, ⟨19, _⟩ => ⟨S1x256x256, .f32⟩
  | .hbm, ⟨20, _⟩ => ⟨S4x256x256, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S4x1x256, .f32⟩
  | .hbm, ⟨31, _⟩ => ⟨S4x256x256, .f32⟩
  | .hbm, ⟨32, _⟩ => ⟨S4x256x256, .f32⟩
  | .hbm, ⟨33, _⟩ => ⟨S4x65536x256, .f32⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S_S1x256x256 : S_.BroadcastsInDim S1x256x256 (![] : Fin 0 → Fin S1x256x256.rank)
  bcast_S1x256x256_S4x256x256_0_1_2 : S1x256x256.BroadcastsInDim S4x256x256 (![0, 1, 2] : Fin 3 → Fin S4x256x256.rank)
  bcast_S4x256x1_S4x256x256_0_1_2 : S4x256x1.BroadcastsInDim S4x256x256 (![0, 1, 2] : Fin 3 → Fin S4x256x256.rank)
  reducesTo_S4x256x256_S4x256_d1 : S4x256x256.ReducesTo [1] S4x256
  h_S_ : 0 < S_.numel
  bcast_S_S4x256 : S_.BroadcastsInDim S4x256 (![] : Fin 0 → Fin S4x256.rank)
  bcast_S4x256_S4x1x256_0_2 : S4x256.BroadcastsInDim S4x1x256 (![0, 2] : Fin 2 → Fin S4x1x256.rank)
  bcast_S4x1x256_S4x256x256_0_1_2 : S4x1x256.BroadcastsInDim S4x256x256 (![0, 1, 2] : Fin 3 → Fin S4x256x256.rank)
  dot_S4x512_S512x256_S4x256_1_0_0_1_n_n_wf : DotDims.WF S4x512 S512x256 S4x256 [1] [0] [0] [1] [] []
  dot_S4x65536x256_S4x256x256_S4x65536x256_2_1_1_2_0_0_wf : DotDims.WF S4x65536x256 S4x256x256 S4x65536x256 [2] [1] [1] [2] [0] [0]

variable [Facts₀]

def dot_S4x512_S512x256_S4x256_1_0_0_1_n_n : DotDims S4x512 S512x256 S4x256 where
  lhsContracting := [1]
  rhsContracting := [0]
  lhsNonContracting := [0]
  rhsNonContracting := [1]
  lhsBatch := []
  rhsBatch := []
  wf := dot_S4x512_S512x256_S4x256_1_0_0_1_n_n_wf
def dot_S4x65536x256_S4x256x256_S4x65536x256_2_1_1_2_0_0 : DotDims S4x65536x256 S4x256x256 S4x65536x256 where
  lhsContracting := [2]
  rhsContracting := [1]
  lhsNonContracting := [1]
  rhsNonContracting := [2]
  lhsBatch := [0]
  rhsBatch := [0]
  wf := dot_S4x65536x256_S4x256x256_S4x65536x256_2_1_1_2_0_0_wf

class Facts : Prop extends Facts₀ where

variable [Facts]
-- ==== Proof.BatchedProduct.lean ====
/-
  The batched product, as one function of two arrays, index by index.

  For an array `x` of shape [4, 65536, 256] (batch, row, channel) and an array `w` of shape [4, 256, 256]
  (batch, channel, output channel) the product array has, at (b, n, o), the sum over the 256 channels k of
  x(b, n, k) · w(b, k, o), on the extended reals. Both programs compute this array: one as a single batched
  contraction, the other block of rows by block of rows.
-/
import Idealize.ShloMosaic.PureOps.Ideal
import Idealize.ShloMosaic.Lib.ValueIdx

noncomputable section

namespace Cert.BatchedProduct

open Idealize.ShloMosaic Idealize.ShloMosaic.ValueIdx

/-- The shape of the left operand and of the product: batch, row, channel. -/
abbrev XS : Shape := ⟨3, ![4, 65536, 256]⟩
/-- The shape of the right operand: batch, channel, output channel. -/
abbrev WS : Shape := ⟨3, ![4, 256, 256]⟩

/-- The product at (b, n, o): the sum over the channel k of x(b, n, k) · w(b, k, o). -/
def prod (x : XS.Idx → EReal) (w : WS.Idx → EReal) : XS.Idx → EReal :=
  fun i => ∑ k : Fin 256, x (ix3 (i 0) (i 1) k) * w (ix3 (i 0) k (i 2))

theorem prod_apply (x : XS.Idx → EReal) (w : WS.Idx → EReal) (b : Fin 4) (n : Fin 65536) (o : Fin 256) :
    prod x w (ix3 b n o) = ∑ k : Fin 256, x (ix3 b n k) * w (ix3 b k o) := rfl

end Cert.BatchedProduct

end
-- ==== Proof.BlockProduct.lean ====
/-
  One block of the kernel: its stored value at an index.

  At a grid point the body loads a block of rows x0 (shape [1, 8192, 256]) and the sample's weight block x1
  (shape [1, 256, 256]), drops their unit axis, rounds both to bf16 (on the extended reals a change of format
  is the identity), multiplies them into a zero accumulator, and puts the unit axis back. So the stored value
  at (0, r, o) is the sum over the 256 channels k of x0(0, r, k) · x1(0, k, o).
-/
import proofs.«161361_j34445637714486_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.BlockProduct

open Cert.KernelIdeal Cert.KernelIdeal.Gen Idealize.ShloMosaic Idealize.ShloMosaic.ValueIdx

/-- The block matmul's dimension record: rows × channels times channels × output channels. -/
abbrev D : DotDims S8192x256 S256x256 S8192x256 := dot_S8192x256_S256x256_S8192x256_1_0_0_1_n_n

/-- The left operand is read at the output's row … -/
theorem lhs_row (i : S8192x256.Idx) (q : D.contr.Idx) : (D.lhsIdx i q 0).val = (i 0).val := by
  unfold DotDims.lhsIdx
  rw [dif_neg (show ¬(0 : Fin S8192x256.rank) ∈ D.lhsBatch by decide), dif_pos (show (0 : Fin S8192x256.rank) ∈ D.lhsNonContracting by decide)]
  rfl
/-- … and at the contraction position; -/
theorem lhs_chan (i : S8192x256.Idx) (q : D.contr.Idx) : (D.lhsIdx i q 1).val = (q ⟨0, by decide⟩).val :=
  D.lhsIdx_val_of_single rfl i q
/-- the right operand at the contraction position … -/
theorem rhs_chan (i : S8192x256.Idx) (q : D.contr.Idx) : (D.rhsIdx i q 0).val = (q ⟨0, by decide⟩).val :=
  D.rhsIdx_val_of_single rfl i q
/-- … and at the output's column. -/
theorem rhs_col (i : S8192x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- A product of two matrices into a zero accumulator, read at (r, o): the sum over the channel. -/
theorem matmul_zero_apply (a : FVec Ideal S8192x256 .bf16) (b : FVec Ideal S256x256 .bf16) (r : Fin 8192) (o : Fin 256) :
    matmul D none a b (constant (F := Ideal) S8192x256 .f32 0x00000000#32) (ix2 r o)
      = ∑ k : Fin 256, a (ix2 r k) * b (ix2 k o) := by
  refine (Ideal.matmul_constant_zero_apply D none a b (ix2 r o)).trans ?_
  rw [← Equiv.sum_comp (contrEquiv1 D 256 rfl rfl).symm]
  refine Finset.sum_congr rfl fun k _ => ?_
  have hk := contrEquiv1_symm_val D 256 rfl rfl k
  have el : D.lhsIdx (ix2 r o) ((contrEquiv1 D 256 rfl rfl).symm k) = ix2 r k := funext fun a => Fin.ext (by
    match a with
    | ⟨0, _⟩ => exact lhs_row _ _
    | ⟨1, _⟩ => exact (lhs_chan _ _).trans hk)
  have er : D.rhsIdx (ix2 r o) ((contrEquiv1 D 256 rfl rfl).symm k) = ix2 k o := funext fun a => Fin.ext (by
    match a with
    | ⟨0, _⟩ => exact (rhs_chan _ _).trans hk
    | ⟨1, _⟩ => exact rhs_col _ _)
  rw [el, er]

/-- THE BLOCK'S VALUE at (u, r, o): the sum over the channel k of x0(0, r, k) · x1(0, k, o). -/
theorem block_apply (x0 : Vec Ideal S1x8192x256 .f32) (x1 : Vec Ideal S1x256x256 .f32) (u : Fin 1) (r : Fin 8192) (o : Fin 256) :
    k0_pay1 (F := Ideal) x0 x1 (ix3 u r o) = ∑ k : Fin 256, x0 (ix3 (0 : Fin 1) r k) * x1 (ix3 (0 : Fin 1) k o) := by
  unfold k0_pay1
  refine (shapeCast_ab_1ab_apply _ _ u r o).trans ?_
  refine (matmul_zero_apply _ _ r o).trans ?_
  refine Finset.sum_congr rfl fun k _ => ?_
  exact congrArg₂ (fun p q : EReal => p * q)
    (shapeCast_1ab_ab_apply x0 shapeCasts_S1x8192x256_S8192x256 r k)
    (shapeCast_1ab_ab_apply x1 shapeCasts_S1x256x256_S256x256 k o)

end Cert.KernelIdeal.BlockProduct

end
-- ==== Proof.ProductArray.lean ====
/-
  From the blocks to the whole array.

  The grid has 4 × 8 points. Point (b, p) stages rows p·8192 … p·8192 + 8191 of sample b of x, the whole weight
  of sample b, and writes the same rows of sample b of the result. Each written block is the restriction of ONE
  function of the two arrays the region is launched on — the batched product — and the 32 blocks cover the
  result array; so after the run the result array is that product.
-/
import proofs.«161361_j34445637714486_2_alg».proof.Proof.Gen.KernelIdeal.Value
import proofs.«161361_j34445637714486_2_alg».proof.Proof.BlockProduct
import proofs.«161361_j34445637714486_2_alg».proof.Proof.BatchedProduct
import Idealize.ShloMosaic.Lib.Pipeline.Value
import Idealize.ShloMosaic.Lib.ValueIdx

noncomputable section

namespace Cert.KernelIdeal.ProductArray

open Cert.KernelIdeal Cert.KernelIdeal.Gen Idealize.ShloMosaic Idealize.ShloMosaic.TcCoe Idealize.SL.Sem Idealize.ShloMosaic.ValueIdx
open Idealize.ShloMosaic.Pipeline (Dat)
open Cert.BatchedProduct (prod XS WS)

variable (m : (ℓ : Loc nD τ sig) → Buf (Elt Ideal) ℓ) (ρ : Dev nD → PrngReg)

theorem origin3 : (![0, 0, 0] : Fin 3 → Nat) = fun _ => 0 := funext fun a => by fin_cases a <;> rfl

/-- The three windows' block indices at a point, decided over the 32 points: x's block moves with the result's
    (same sample, same block of rows); the weight's block is the result's sample; the last axis is never cut. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 3
    ∧ win0_2.index t (1 : Fin 3) ≤ 7
    ∧ win0_2.index t (2 : Fin 3) = 0 :=
  (by decide +kernel : ∀ t : Fin grid0.N, _)

/-- Every (sample, block of rows) is some point's. -/
theorem block_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

/-- One stored entry against the product: if the loaded blocks hold, along the channel, the row of X and the
    column of W that entry i of the product reads, the block's value at j is the product at i. -/
theorem entry_eq (x0 : Vec Ideal S1x8192x256 .f32) (x1 : Vec Ideal S1x256x256 .f32) (X : XS.Idx → EReal) (W : WS.Idx → EReal)
    (i : XS.Idx) (j : S1x8192x256.Idx)
    (hx : ∀ k : Fin 256, x0 (ix3 (0 : Fin 1) (j 1) k) = X (ix3 (i 0) (i 1) k))
    (hw : ∀ k : Fin 256, x1 (ix3 (0 : Fin 1) k (j 2)) = W (ix3 (i 0) k (i 2))) :
    k0_pay1 (F := Ideal) x0 x1 j = prod X W i := by
  obtain ⟨u, r, o, rfl⟩ : ∃ (u : Fin 1) (r : Fin 8192) (o : Fin 256), j = ix3 u r o := ⟨j 0, j 1, j 2, eq_ix3 j⟩
  rw [BlockProduct.block_apply]
  exact Finset.sum_congr rfl fun k _ => by rw [hx k, hw k]

/-- WHAT POINT t WRITES BACK is block t of the product of the two arrays the region finds. -/
theorem flushed_eq (c : Dev nD) (t : Fin cfg0.N) :
    (dats m 0 c).flushed 2 t = ((cfg0.win 2).blk t).view.read (Elt Ideal) (prod (V m c main_arg0) (V m c main_v22)) := by
  rw [Value.flushed2]
  unfold out0_2
  rw [View.canon_unit_zero origin3]
  simp only [View.ld_unit_zero (S := S1x8192x256) origin3, View.ld_unit_zero (S := S1x256x256) origin3]
  obtain ⟨e00, e01, e02, e10, e11, e12, b0, b1, e22⟩ := block_indices t
  funext j
  show k0_pay1 (F := Ideal) (iblk m c 0 t) (iblk m c 1 t) j = prod (V m c main_arg0) (V m c main_v22) (((cfg0.win 2).blk t).view.emb j)
  refine entry_eq (iblk m c 0 t) (iblk m c 1 t) (V m c main_arg0) (V m c main_v22) (((cfg0.win 2).blk t).view.emb j) j ?_ ?_
  · intro k
    show V m c main_arg0 (((cfg0.win 0).blk t).view.emb (ix3 (0 : Fin 1) (j 1) k)) = V m c main_arg0 _
    refine congrArg (V m c main_arg0) ?_
    funext a; apply Fin.ext
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 8192 + 1 * (j 1).val = win0_2.index t (1 : Fin 3) * 8192 + 1 * (j 1).val; omega
    | ⟨2, _⟩ => show win0_0.index t (2 : Fin 3) * 256 + 1 * k.val = k.val; omega
  · intro k
    show V m c main_v22 (((cfg0.win 1).blk t).view.emb (ix3 (0 : Fin 1) k (j 2))) = V m c main_v22 _
    refine congrArg (V m c main_v22) ?_
    funext a; apply Fin.ext
    match a with
    | ⟨0, _⟩ => show win0_1.index t (0 : Fin 3) * 1 + 1 * 0 = win0_2.index t (0 : Fin 3) * 1 + 1 * (j 0).val; have hj : (j 0).val < 1 := (j 0).isLt; omega
    | ⟨1, _⟩ => show win0_1.index t (1 : Fin 3) * 256 + 1 * k.val = k.val; omega
    | ⟨2, _⟩ => show win0_1.index t (2 : Fin 3) * 256 + 1 * (j 2).val = win0_2.index t (2 : Fin 3) * 256 + 1 * (j 2).val; omega

/-- An index of the result array is in point t's block iff each coordinate is in the block's range on its axis. -/
theorem mem_block (t : Fin cfg0.N) (i : S4x65536x256.Idx) :
    i ∈ ((cfg0.win 2).blk t).view.set ↔ ∀ a : Fin 3, win0_2.index t a * S1x8192x256.size a ≤ (i a).val ∧ (i a).val < win0_2.index t a * S1x8192x256.size a + S1x8192x256.size a := by
  show i ∈ ((View.whole main_v23).slice (win0_2.rect t)).set ↔ _
  rw [View.set_slice_whole, Rect.mem_set_unit]
  exact Iff.rfl

/-- The blocks cover the result array: entry (b, n, o) lies in the block of sample b and of rows n / 8192. -/
theorem covered (i : S4x65536x256.Idx) : ∃ t : Fin cfg0.N, (cfg0.win 2).flush t = true ∧ i ∈ ((cfg0.win 2).blk t).view.set := by
  have hi0 : (i 0).val < 4 := (i 0).isLt
  have hi1 : (i 1).val < 65536 := (i 1).isLt
  have hi2 : (i 2).val < 256 := (i 2).isLt
  obtain ⟨t, ht⟩ := block_onto ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 256 ≤ (i 2).val ∧ (i 2).val < win0_2.index t (2 : Fin 3) * 256 + 256; omega

/-- THE RESULT ARRAY after the run: the batched product of the two arrays the region is launched on. -/
theorem final (c : Dev nD) : (dats m 0 c).arrAt 2 cfg0.N = prod (V m c main_arg0) (V m c main_v22) :=
  (dats m 0 c).arrAt_eq_of_cover 2 (prod (V m c main_arg0) (V m c main_v22)) (fun t _ => flushed_eq m c t) covered

end Cert.KernelIdeal.ProductArray

end
-- ==== Proof.HostWeight.lean ====
/-
  The weight the kernel's region is launched on.

  Before the region the kernel's program computes, from the style vector, the base weight, the modulation
  matrix and its bias, the modulated and demodulated weight of every sample — by the same host operations, in
  the same order and with the same literals, as the reference does before its contraction. So the array the
  region finds in that buffer is the reference's own stage of the same four arguments; it is never opened.
-/
import proofs.«161361_j34445637714486_2_alg».proof.Proof.Gen.KernelIdeal.Frame
import proofs.«161361_j34445637714486_2_alg».proof.Proof.Gen.ReferenceIdeal.Read
import Idealize.ShloMosaic.Lib.StableHlo.Run

noncomputable section

namespace Cert.KernelIdeal.HostWeight

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The modulated weight at region entry is the reference's stage of the four small arguments. -/
theorem weight_eq (c : Dev nD) :
    (V m c main_v22 : S4x256x256.Idx → EReal)
      = Cert.ReferenceIdeal.Read.val_main_v22 (F := Ideal) (m ((c : Thread nD τ).loc main_arg1)) (m ((c : Thread nD τ).loc main_arg2))
          (m ((c : Thread nD τ).loc main_arg3)) (m ((c : Thread nD τ).loc main_arg4)) := by
  dsimp only [Gen.V, Gen.hostOps0]
  after_results
  rfl

end Cert.KernelIdeal.HostWeight

end
-- ==== Proof.ReferenceProduct.lean ====
/-
  The reference's result is the batched product.

  The reference ends with one contraction, batched over the sample axis, of its first argument x (channel axis)
  against the modulated weight (its first non-batch axis). Read at (b, n, o) that is the sum over the channel k of
  x(b, n, k) · w(b, k, o): the batched product of x and of the reference's weight stage.
-/
import proofs.«161361_j34445637714486_2_alg».proof.Proof.Gen.ReferenceIdeal.Read
import proofs.«161361_j34445637714486_2_alg».proof.Proof.BatchedProduct
import Idealize.ShloMosaic.Lib.ValueIdx

noncomputable section

namespace Cert.ReferenceIdeal.RefProduct

open Cert.ReferenceIdeal Cert.ReferenceIdeal.Gen Cert.ReferenceIdeal.Read Idealize.ShloMosaic Idealize.ShloMosaic.ValueIdx
open Cert.BatchedProduct (prod)

/-- The reference's last stage is the batched product of x and of its weight stage. -/
theorem result_eq (x0 : (⟨S4x65536x256, .f32⟩ : BufTy).Contents (Elt Ideal)) (x1 : (⟨S4x512, .f32⟩ : BufTy).Contents (Elt Ideal))
    (x2 : (⟨S1x256x256, .f32⟩ : BufTy).Contents (Elt Ideal)) (x3 : (⟨S256x512, .f32⟩ : BufTy).Contents (Elt Ideal))
    (x4 : (⟨S256, .f32⟩ : BufTy).Contents (Elt Ideal)) :
    val_main_v23 (F := Ideal) x0 x1 x2 x3 x4 = prod x0 (val_main_v22 (F := Ideal) x1 x2 x3 x4) := by
  funext i
  rw [val_main_v23_apply]
  show (∑ k : Fin 256, _) = ∑ k : Fin 256, x0 (ix3 (i 0) (i 1) k) * val_main_v22 (F := Ideal) x1 x2 x3 x4 (ix3 (i 0) k (i 2))
  refine Finset.sum_congr rfl fun k _ => ?_
  have el : lidx_main_v23 i k = ix3 (i 0) (i 1) k := funext fun a => by
    match a with
    | ⟨0, _⟩ => rfl
    | ⟨1, _⟩ => rfl
    | ⟨2, _⟩ => rfl
  have er : ridx_main_v23 i k = ix3 (i 0) k (i 2) := funext fun a => by
    match a with
    | ⟨0, _⟩ => rfl
    | ⟨1, _⟩ => rfl
    | ⟨2, _⟩ => rfl
  rw [el, er]
  rfl

end Cert.ReferenceIdeal.RefProduct

end
-- ==== Proof.lean ====
/-
  The kernel and its reference compute the same array on the extended reals.

  Both programs first build, from the style vector, the base weight, the modulation matrix and its bias, the
  modulated and demodulated weight w of every sample (shape [4, 256, 256]) — by the same host operations with the
  same literals. The reference then contracts x (shape [4, 65536, 256]) against w over the channel axis, batched
  over the sample axis. The kernel computes the same contraction block of rows by block of rows: 4 × 8 grid
  points, each multiplying 8192 rows of one sample of x by that sample's weight into a zero accumulator, after
  rounding both operands to bf16 — which on the extended reals is the identity. So both results are, at (b, n, o),
  the sum over the 256 channels k of x(b, n, k) · w(b, k, o). No law beyond reading each side at an index is
  needed: the two sums have the same terms in the same order, and the weight is the same term on both sides.
  The ideal pass rewrote nothing, so the idealized kernel is the kernel's own text read on the extended reals.
-/
import proofs.«161361_j34445637714486_2_alg».proof.Defs
import proofs.«161361_j34445637714486_2_alg».proof.Proof.Gen.Kernel
import proofs.«161361_j34445637714486_2_alg».proof.Proof.Gen.Kernel.Skeleton
import proofs.«161361_j34445637714486_2_alg».proof.Proof.Gen.Kernel.Launch
import proofs.«161361_j34445637714486_2_alg».proof.Proof.Gen.Kernel.Points
import proofs.«161361_j34445637714486_2_alg».proof.Proof.Gen.Kernel.Frame
import proofs.«161361_j34445637714486_2_alg».proof.Proof.Gen.KernelIdeal
import proofs.«161361_j34445637714486_2_alg».proof.Proof.Gen.KernelIdeal.Skeleton
import proofs.«161361_j34445637714486_2_alg».proof.Proof.Gen.KernelIdeal.Launch
import proofs.«161361_j34445637714486_2_alg».proof.Proof.Gen.KernelIdeal.Points
import proofs.«161361_j34445637714486_2_alg».proof.Proof.Gen.KernelIdeal.Frame
import proofs.«161361_j34445637714486_2_alg».proof.Proof.Gen.ReferenceIdeal
import proofs.«161361_j34445637714486_2_alg».proof.Proof.Gen.Pre_finite_inputs
import proofs.«161361_j34445637714486_2_alg».proof.Proof.Gen.KernelIdeal.Value
import proofs.«161361_j34445637714486_2_alg».proof.Proof.Gen.ReferenceIdeal.Run
import proofs.«161361_j34445637714486_2_alg».proof.Proof.Gen.ReferenceIdeal.Read
import proofs.«161361_j34445637714486_2_alg».proof.Proof.BatchedProduct
import proofs.«161361_j34445637714486_2_alg».proof.Proof.ProductArray
import proofs.«161361_j34445637714486_2_alg».proof.Proof.HostWeight
import proofs.«161361_j34445637714486_2_alg».proof.Proof.ReferenceProduct
import Idealize.ShloMosaic.Adequacy
import Idealize.ShloMosaic.Init

noncomputable section

namespace Cert.Proof

open Idealize.ShloMosaic Idealize.ShloMosaic.TcCoe Idealize.SL.Sem
open Cert.BatchedProduct (prod)

/-! ## The kernel's run, read -/

section KernelRun

open Cert.KernelIdeal Cert.KernelIdeal.Gen

/-- The idealized kernel's run: the result array ends at the batched product of x and of the weight the host
    operations computed — spelt as the reference's weight stage of the four small arguments —, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v23)
          = prod (m ((c : Thread nD τ).loc main_arg0))
              (Cert.ReferenceIdeal.Read.val_main_v22 (F := Ideal) (m ((c : Thread nD τ).loc main_arg1)) (m ((c : Thread nD τ).loc main_arg2))
                (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Cert.KernelIdeal.ProductArray.final m c).trans
      (congrArg₂ prod (V_main_arg0 m c) (Cert.KernelIdeal.HostWeight.weight_eq m c))), (h c).2⟩)
    (Cert.KernelIdeal.Value.run_blocks m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's end at the same batched product. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq _ _ _ _ _).trans ((Cert.ReferenceIdeal.RefProduct.result_eq _ _ _ _ _).trans ?_)
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
